-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x512 : Shape := ⟨2, ![4096, 512]⟩
abbrev S512 : Shape := ⟨1, ![512]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S16384x4096 .f32) (main_arg1 : FVec F S4096x512 .f32) (main_arg2 : FVec F S512 .f32) (main_arg3 : FVec F S4096x512 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Kernel.lean ====
abbrev S16384x4096 : Shape := ⟨2, ![16384, 4096]⟩
abbrev S4096x512 : Shape := ⟨2, ![4096, 512]⟩
abbrev S512 : Shape := ⟨1, ![512]⟩
abbrev S1x512 : Shape := ⟨2, ![1, 512]⟩
abbrev S512x4096 : Shape := ⟨2, ![512, 4096]⟩
abbrev S256x4096 : Shape := ⟨2, ![256, 4096]⟩
abbrev S256x512 : Shape := ⟨2, ![256, 512]⟩

abbrev nBuf : Space → Nat
  | .hbm => 11
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x512, .f32⟩
  | .hbm, ⟨2, _⟩ => ⟨S512, .f32⟩
  | .hbm, ⟨3, _⟩ => ⟨S4096x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S4096x512, .bf16⟩
  | .hbm, ⟨8, _⟩ => ⟨S512x4096, .f32⟩
  | .hbm, ⟨9, _⟩ => ⟨S512x4096, .bf16⟩
  | .hbm, ⟨10, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S4096x512, .bf16⟩
  | .local _ .vmem, ⟨3, _⟩ => ⟨S512x4096, .bf16⟩
  | .local _ .vmem, ⟨4, _⟩ => ⟨S256x4096, .f32⟩
  | .local _ .vmem, ⟨5, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bitsLt_bf16_f32 : FTy.bits .bf16 < FTy.bits .f32
  transposes_S4096x512_S512x4096_1_0 : S4096x512.Transposes [1, 0] S512x4096
  inb_S256x4096_S256x4096_0_0 : ∀ a, (![0, 0] : Fin 2 → Nat) a + S256x4096.size a ≤ S256x4096.size a
  h_S256x4096 : 0 < S256x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  dot_S256x4096_S4096x512_S256x512_1_0_0_1_n_n_wf : DotDims.WF S256x4096 S4096x512 S256x512 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .bf16 = 32 ∨ (Rect.block (s := S512x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x512 : Shape := ⟨2, ![4096, 512]⟩
abbrev S512 : Shape := ⟨1, ![512]⟩
abbrev S1x512 : Shape := ⟨2, ![1, 512]⟩
abbrev S512x4096 : Shape := ⟨2, ![512, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x512, .f32⟩
  | .hbm, ⟨2, _⟩ => ⟨S512, .f32⟩
  | .hbm, ⟨3, _⟩ => ⟨S4096x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S512x4096, .f32⟩
  | .hbm, ⟨8, _⟩ => ⟨S4096x4096, .f32⟩
  | .hbm, ⟨9, _⟩ => ⟨S4096x4096, .f32⟩
  | .hbm, ⟨10, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  transposes_S4096x512_S512x4096_1_0 : S4096x512.Transposes [1, 0] S512x4096
  transposes_S4096x4096_S4096x4096_1_0 : S4096x4096.Transposes [1, 0] S4096x4096
  dot_S4096x512_S512x4096_S4096x4096_1_0_0_1_n_n_wf : DotDims.WF S4096x512 S512x4096 S4096x4096 [1] [0] [0] [1] [] []
  dot_S16384x4096_S4096x4096_S16384x4096_1_0_0_1_n_n_wf : DotDims.WF S16384x4096 S4096x4096 S16384x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.FiniteInputs.lean ====
/-
  What the precondition gives: every entry of every input array is a real number.

  The precondition is the conjunction, over the four input arrays, of "every entry has absolute value below +∞".
  An extended real whose absolute value is below +∞ is neither +∞ nor -∞, so it is (the coercion of) a real number.
-/
import proofs.«131466_j3453153706201_2_alg».proof.Pre_finite_inputs
import proofs.«131466_j3453153706201_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- The rank-0 shape has one index. -/
instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real with |x| < +∞ is a real number: at ±∞ the absolute value max x (-x) is +∞. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = r := by
  induction x using EReal.rec with
  | bot => exfalso; revert h; simp [FloatOps.cmpf, FloatOps.hostAbsf, FloatOps.absf, Ideal.cmp, inf_word]
  | coe r => exact ⟨r, rfl⟩
  | top => exfalso; revert h; simp [FloatOps.cmpf, FloatOps.hostAbsf, FloatOps.absf, Ideal.cmp, inf_word]

/-- If the precondition's function is all ones at the four input arrays, every entry of each is a real number. -/
theorem reals_of_pre (a0 : FVec Ideal S16384x4096 .f32) (a1 : FVec Ideal S4096x512 .f32) (a2 : FVec Ideal S512 .f32)
    (a3 : FVec Ideal S4096x512 .f32) (h : fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i)⟩

end Cert.FiniteInputs

end
-- ==== Proof.LibERealSums.lean ====
import Idealize.ShloMosaic.PureOps.Ideal
import Mathlib.Algebra.BigOperators.Fin

/-!
# Finite sums and suprema of real families inside the extended reals

A family of extended reals all of whose members are (coercions of) real numbers has a real sum, and, over a
nonempty finite index set, a real supremum. These are the facts that let an identity between finite sums be
proved in `ℝ` and carried to `EReal`.
-/

namespace Cert.ERealSums

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are all real is the coercion of the real sum. -/
theorem sum_eq_coe {ι : Type*} (s : Finset ι) (F : ι → EReal) (f : ι → ℝ) (h : ∀ i ∈ s, F i = (f i : EReal)) :
    ∑ i ∈ s, F i = ((∑ i ∈ s, f i : ℝ) : EReal) := by
  rw [coe_finset_sum]; exact Finset.sum_congr rfl h

/-- Over a nonempty finite index set the supremum (taken from `⊥`) of a real family is one of its members,
    hence real. -/
theorem exists_sup_eq_coe {ι : Type*} (s : Finset ι) (hs : s.Nonempty) (f : ι → ℝ) :
    ∃ i ∈ s, s.sup (fun j => (f j : EReal)) = (f i : EReal) :=
  Finset.exists_mem_eq_sup s hs (fun j => (f j : EReal))

end Cert.ERealSums
-- ==== Proof.LowRankLaw.lean ====
/-
  The one algebraic law of this certificate: a low-rank product evaluated in two orders.

  With x a row of the input, v the right factor, σ the diagonal and u a row of the left factor,
      Σ_r (Σ_i x_i · (v_{i r} · σ_r)) · u_r   =   Σ_i x_i · (Σ_r (u_r · σ_r) · v_{i r}),
  both being the double sum Σ_i Σ_r x_i · u_r · σ_r · v_{i r}.  Moving a factor across a sum is distributivity, which
  fails in the extended reals at the infinities, so the law is proved over ℝ and carried to extended reals all of
  whose entries are real numbers.
-/
import proofs.«131466_j3453153706201_2_alg».proof.Proof.LibERealSums
import Mathlib.Algebra.BigOperators.Ring.Finset
import Mathlib.Tactic.Ring

namespace Cert.LowRank

open Cert.ERealSums

/-- The law over the reals: both sides are the double sum of the four-fold products. -/
theorem law_real {I R : Type*} [Fintype I] [Fintype R] (x : I → ℝ) (u σ : R → ℝ) (v : I → R → ℝ) :
    ∑ r, (∑ i, x i * (v i r * σ r)) * u r = ∑ i, x i * ∑ r, (u r * σ r) * v i r := by
  simp only [Finset.sum_mul, Finset.mul_sum]
  rw [Finset.sum_comm]
  exact Finset.sum_congr rfl fun i _ => Finset.sum_congr rfl fun r _ => by ring

/-- The law over extended reals whose entries are all real numbers. -/
theorem law {I R : Type*} [Fintype I] [Fintype R] (x : I → EReal) (u σ : R → EReal) (v : I → R → EReal)
    (hx : ∀ i, ∃ a : ℝ, x i = a) (hu : ∀ r, ∃ a : ℝ, u r = a) (hσ : ∀ r, ∃ a : ℝ, σ r = a)
    (hv : ∀ i r, ∃ a : ℝ, v i r = a) :
    ∑ r, (∑ i, x i * (v i r * σ r)) * u r = ∑ i, x i * ∑ r, (u r * σ r) * v i r := by
  choose x' hx using hx
  choose u' hu using hu
  choose σ' hσ using hσ
  choose v' hv using hv
  have hl : ∑ r, (∑ i, x i * (v i r * σ r)) * u r = ((∑ r, (∑ i, x' i * (v' i r * σ' r)) * u' r : ℝ) : EReal) :=
    sum_eq_coe _ _ _ fun r _ => by
      rw [sum_eq_coe Finset.univ (fun i => x i * (v i r * σ r)) (fun i => x' i * (v' i r * σ' r))
        (fun i _ => by rw [hx, hv, hσ, ← EReal.coe_mul, ← EReal.coe_mul]), hu, ← EReal.coe_mul]
  have hr : ∑ i, x i * ∑ r, (u r * σ r) * v i r = ((∑ i, x' i * ∑ r, (u' r * σ' r) * v' i r : ℝ) : EReal) :=
    sum_eq_coe _ _ _ fun i _ => by
      rw [sum_eq_coe Finset.univ (fun r => (u r * σ r) * v i r) (fun r => (u' r * σ' r) * v' i r)
        (fun r _ => by rw [hu, hσ, hv, ← EReal.coe_mul, ← EReal.coe_mul]), hx, ← EReal.coe_mul]
  rw [hl, hr, law_real]

end Cert.LowRank
-- ==== Proof.LowRankSpec.lean ====
/-
  The result as one function of the four input arrays.

  x : [16384, 4096] (tokens × d_in), u : [4096, 512] (d_out × rank), σ : [512], v : [4096, 512] (d_in × rank).
  The product through the rank-512 bottleneck, in the order the kernel evaluates it:
      out[t, o] = Σ_r (Σ_i x[t, i] · (v[i, r] · σ[r])) · u[o, r].
  `throughRank` is the same double contraction over any two intermediate tables (a right factor [4096, 512] and a
  transposed left factor [512, 4096]); `lowRank` instantiates it at the scaled right factor and the transposed left one.
  When every entry is a real number, `lowRank` is also the other evaluation order,
      out[t, o] = Σ_i x[t, i] · (Σ_r (u[o, r] · σ[r]) · v[i, r]).
-/
import proofs.«131466_j3453153706201_2_alg».proof.Proof.LowRankLaw
import Idealize.ShloMosaic.Lib.ValueIdx

noncomputable section

namespace Cert.LowRank

open Idealize.ShloMosaic Idealize.ShloMosaic.ValueIdx

/-- Rows of `x` through a right factor `vs` and then through a transposed left factor `ut`. -/
def throughRank (x : (⟨2, ![16384, 4096]⟩ : Shape).Idx → EReal) (vs : (⟨2, ![4096, 512]⟩ : Shape).Idx → EReal)
    (ut : (⟨2, ![512, 4096]⟩ : Shape).Idx → EReal) : (⟨2, ![16384, 4096]⟩ : Shape).Idx → EReal :=
  fun k => ∑ r : Fin 512, (∑ i : Fin 4096, x (ix2 (k 0) i) * vs (ix2 i r)) * ut (ix2 r (k 1))

/-- The right factor scaled column by column by the diagonal. -/
def scaledRight (σ : (⟨1, ![512]⟩ : Shape).Idx → EReal) (v : (⟨2, ![4096, 512]⟩ : Shape).Idx → EReal) :
    (⟨2, ![4096, 512]⟩ : Shape).Idx → EReal := fun j => v j * σ (ix1 (j 1))

/-- The left factor transposed. -/
def transposedLeft (u : (⟨2, ![4096, 512]⟩ : Shape).Idx → EReal) : (⟨2, ![512, 4096]⟩ : Shape).Idx → EReal :=
  fun j => u (ix2 (j 1) (j 0))

/-- The result array as a function of the inputs. -/
def lowRank (x : (⟨2, ![16384, 4096]⟩ : Shape).Idx → EReal) (u : (⟨2, ![4096, 512]⟩ : Shape).Idx → EReal)
    (σ : (⟨1, ![512]⟩ : Shape).Idx → EReal) (v : (⟨2, ![4096, 512]⟩ : Shape).Idx → EReal) :
    (⟨2, ![16384, 4096]⟩ : Shape).Idx → EReal :=
  throughRank x (scaledRight σ v) (transposedLeft u)

/-- With real entries, `lowRank` at (t, o) is the product with the materialised [4096, 4096] matrix. -/
theorem lowRank_apply (x : (⟨2, ![16384, 4096]⟩ : Shape).Idx → EReal) (u : (⟨2, ![4096, 512]⟩ : Shape).Idx → EReal)
    (σ : (⟨1, ![512]⟩ : Shape).Idx → EReal) (v : (⟨2, ![4096, 512]⟩ : Shape).Idx → EReal)
    (hx : ∀ i, ∃ a : ℝ, x i = a) (hu : ∀ i, ∃ a : ℝ, u i = a) (hσ : ∀ i, ∃ a : ℝ, σ i = a) (hv : ∀ i, ∃ a : ℝ, v i = a)
    (t : Fin 16384) (o : Fin 4096) :
    lowRank x u σ v (ix2 t o)
      = ∑ i : Fin 4096, x (ix2 t i) * ∑ r : Fin 512, (u (ix2 o r) * σ (ix1 r)) * v (ix2 i r) :=
  law (fun i => x (ix2 t i)) (fun r => u (ix2 o r)) (fun r => σ (ix1 r)) (fun i r => v (ix2 i r))
    (fun i => hx _) (fun r => hu _) (fun r => hσ _) (fun i r => hv _)

end Cert.LowRank

end
-- ==== Proof.ReferenceValue.lean ====
/-
  The reference's result read at an index.

  The reference scales the columns of the left factor by the diagonal, multiplies by the transposed right factor to
  materialise the [4096, 4096] matrix w[o, i] = Σ_r (u[o, r] · σ[r]) · v[i, r], transposes it, and multiplies the input
  rows by it: out[t, o] = Σ_i x[t, i] · w[o, i].  With real entries this is `lowRank` (the law of the two orders).
-/
import proofs.«131466_j3453153706201_2_alg».proof.Proof.Gen.ReferenceIdeal.Read
import proofs.«131466_j3453153706201_2_alg».proof.Proof.LowRankSpec

noncomputable section

namespace Cert.ReferenceIdeal.RefValue

open Cert.ReferenceIdeal Cert.ReferenceIdeal.Read Idealize.ShloMosaic Idealize.ShloMosaic.ValueIdx

/-- The reference's result at (t, o): the row of `x` against row `o` of the materialised matrix. -/
theorem result_apply (x0 : (⟨S16384x4096, .f32⟩ : BufTy).Contents (Elt Ideal)) (x1 : (⟨S4096x512, .f32⟩ : BufTy).Contents (Elt Ideal))
    (x2 : (⟨S512, .f32⟩ : BufTy).Contents (Elt Ideal)) (x3 : (⟨S4096x512, .f32⟩ : BufTy).Contents (Elt Ideal))
    (t : Fin 16384) (o : Fin 4096) :
    val_main_v6 (F := Ideal) x0 x1 x2 x3 (ix2 t o)
      = ∑ i : Fin 4096, x0 (ix2 t i) * ∑ r : Fin 512, (x1 (ix2 o r) * x2 (ix1 r)) * x3 (ix2 i r) := by
  rw [val_main_v6_apply]
  refine Finset.sum_congr rfl fun i _ => ?_
  rw [val_main_v5_apply, val_main_v4_apply]
  have e0 : lidx_main_v6 (ix2 t o) i = ix2 t i :=
    funext fun a => Fin.ext (by match a with | ⟨0, _⟩ => rfl | ⟨1, _⟩ => rfl)
  rw [e0]
  congr 1
  refine Finset.sum_congr rfl fun r _ => ?_
  rw [val_main_v2_apply, val_main_v1_apply, val_main_v0_apply, val_main_v3_apply]
  have e1 : lidx_main_v4 (idx_main_v5 (ridx_main_v6 (ix2 t o) i)) r = ix2 o r :=
    funext fun a => Fin.ext (by match a with | ⟨0, _⟩ => rfl | ⟨1, _⟩ => rfl)
  have e2 : idx_main_v0 (idx_main_v1 (ix2 o r)) = ix1 r :=
    funext fun a => Fin.ext (by match a with | ⟨0, _⟩ => rfl)
  have e3 : idx_main_v3 (ridx_main_v4 (idx_main_v5 (ridx_main_v6 (ix2 t o) i)) r) = ix2 i r :=
    funext fun a => Fin.ext (by match a with | ⟨0, _⟩ => rfl | ⟨1, _⟩ => rfl)
  rw [e1, e2, e3]
  rfl

/-- With real entries the reference's result is `lowRank` of the inputs. -/
theorem result_eq (x0 : (⟨S16384x4096, .f32⟩ : BufTy).Contents (Elt Ideal)) (x1 : (⟨S4096x512, .f32⟩ : BufTy).Contents (Elt Ideal))
    (x2 : (⟨S512, .f32⟩ : BufTy).Contents (Elt Ideal)) (x3 : (⟨S4096x512, .f32⟩ : BufTy).Contents (Elt Ideal))
    (h0 : ∀ i, ∃ a : ℝ, x0 i = a) (h1 : ∀ i, ∃ a : ℝ, x1 i = a) (h2 : ∀ i, ∃ a : ℝ, x2 i = a) (h3 : ∀ i, ∃ a : ℝ, x3 i = a) :
    val_main_v6 (F := Ideal) x0 x1 x2 x3 = Cert.LowRank.lowRank x0 x1 x2 x3 := by
  funext k
  obtain ⟨t, o, rfl⟩ : ∃ (t : Fin 16384) (o : Fin 4096), k = ix2 t o := ⟨k 0, k 1, eq_ix2 k⟩
  rw [result_apply, Cert.LowRank.lowRank_apply x0 x1 x2 x3 h0 h1 h2 h3]

end Cert.ReferenceIdeal.RefValue

end
-- ==== Proof.LibPlainMatmul.lean ====
/-
  A plain matrix product read at an index.

  For dimension numbers that contract the left operand's second axis with the right operand's first and have no
  batch axes, the matrix unit's product of `l : [M, K]` and `r : [K, N]` into a zero accumulator is, at `(p, q)`,
  the finite sum `Σ_k l[p, k] · r[k, q]` in the extended reals.  The four coordinate facts of the dimension numbers
  are hypotheses: they are decided, or read off the record, for a program's literal record.
-/
import Idealize.ShloMosaic.PureOps.Ideal.Laws
import Idealize.ShloMosaic.Lib.ValueIdx

noncomputable section

namespace Idealize.ShloMosaic.PlainMatmul

open Idealize.ShloMosaic Idealize.ShloMosaic.ValueIdx

/-- The sum over a one-axis contraction index is the sum over its one coordinate. -/
theorem contr_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The matrix unit's product into a zero accumulator, read at `(p, q)`. -/
theorem matmul_zero_apply {M K N : Nat} {φ₁ φ₂ : FTy} (d : DotDims ⟨2, ![M, K]⟩ ⟨2, ![K, N]⟩ ⟨2, ![M, N]⟩)
    (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : FVec Ideal ⟨2, ![M, K]⟩ φ₁) (r : FVec Ideal ⟨2, ![K, N]⟩ φ₂) (p : Fin M) (q : Fin N) :
    matmul d prec l r (constant (F := Ideal) ⟨2, ![M, N]⟩ .f32 0x00000000#32) (ix2 p q)
      = ∑ k : Fin K, l (ix2 p k) * r (ix2 k q) := by
  exact (Ideal.matmul_constant_zero_apply d prec l r (ix2 p q)).trans (contr_sum d hr hs hl0 hl1 hr0 hr1 l r p q)

end Idealize.ShloMosaic.PlainMatmul

end
-- ==== Proof.KernelPayload.lean ====
/-
  The kernel body's stored value read at an index.

  At a grid point the body holds a [256, 4096] block of input rows, the whole [4096, 512] right table and the whole
  [512, 4096] left table.  It multiplies the rows by the right table on the matrix unit (a zero accumulator), then the
  [256, 512] product by the left table (again a zero accumulator); the changes of float format and the shape casts to
  the same shape are identities on extended reals.  So the stored block at (p, q) is
      Σ_r (Σ_i rows[p, i] · right[i, r]) · left[r, q].
-/
import proofs.«131466_j3453153706201_2_alg».proof.Proof.Gen.KernelIdeal.Skeleton
import proofs.«131466_j3453153706201_2_alg».proof.Proof.LibPlainMatmul
import Idealize.ShloMosaic.Lib.Pipeline.Value

noncomputable section

namespace Cert.KernelIdeal.Payload

open Cert.KernelIdeal Cert.KernelIdeal.Gen Idealize.ShloMosaic Idealize.ShloMosaic.ValueIdx

/-! The coordinates the two contractions read: the left operand at (row of the result, k), the right at (k, column). -/

theorem first_l0 (i : S256x512.Idx) (q : dot_S256x4096_S4096x512_S256x512_1_0_0_1_n_n.contr.Idx) : (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem first_l1 (i : S256x512.Idx) (q : dot_S256x4096_S4096x512_S256x512_1_0_0_1_n_n.contr.Idx) : (dot_S256x4096_S4096x512_S256x512_1_0_0_1_n_n.lhsIdx i q 1).val = (q ⟨0, by decide⟩).val :=
  dot_S256x4096_S4096x512_S256x512_1_0_0_1_n_n.lhsIdx_val_of_single rfl i q
theorem first_r0 (i : S256x512.Idx) (q : dot_S256x4096_S4096x512_S256x512_1_0_0_1_n_n.contr.Idx) : (dot_S256x4096_S4096x512_S256x512_1_0_0_1_n_n.rhsIdx i q 0).val = (q ⟨0, by decide⟩).val :=
  dot_S256x4096_S4096x512_S256x512_1_0_0_1_n_n.rhsIdx_val_of_single rfl i q
theorem first_r1 (i : S256x512.Idx) (q : dot_S256x4096_S4096x512_S256x512_1_0_0_1_n_n.contr.Idx) : (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

theorem second_l0 (i : S256x4096.Idx) (q : dot_S256x512_S512x4096_S256x4096_1_0_0_1_n_n.contr.Idx) : (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem second_l1 (i : S256x4096.Idx) (q : dot_S256x512_S512x4096_S256x4096_1_0_0_1_n_n.contr.Idx) : (dot_S256x512_S512x4096_S256x4096_1_0_0_1_n_n.lhsIdx i q 1).val = (q ⟨0, by decide⟩).val :=
  dot_S256x512_S512x4096_S256x4096_1_0_0_1_n_n.lhsIdx_val_of_single rfl i q
theorem second_r0 (i : S256x4096.Idx) (q : dot_S256x512_S512x4096_S256x4096_1_0_0_1_n_n.contr.Idx) : (dot_S256x512_S512x4096_S256x4096_1_0_0_1_n_n.rhsIdx i q 0).val = (q ⟨0, by decide⟩).val :=
  dot_S256x512_S512x4096_S256x4096_1_0_0_1_n_n.rhsIdx_val_of_single rfl i q
theorem second_r1 (i : S256x4096.Idx) (q : dot_S256x512_S512x4096_S256x4096_1_0_0_1_n_n.contr.Idx) : (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- The stored block at (p, q) in terms of the three loaded blocks. -/
theorem stored_apply (x0 : Vec Ideal S256x4096 .f32) (vs : Vec Ideal S4096x512 .bf16) (ut : Vec Ideal S512x4096 .bf16)
    (p : Fin 256) (q : Fin 4096) :
    k0_pay1 (F := Ideal) x0 vs ut (ix2 p q)
      = ∑ r : Fin 512, (∑ i : Fin 4096, (x0 (ix2 p i) : EReal) * (vs (ix2 i r) : EReal)) * (ut (ix2 r q) : EReal) := by
  unfold k0_pay1
  refine (PlainMatmul.matmul_zero_apply dot_S256x512_S512x4096_S256x4096_1_0_0_1_n_n none rfl rfl second_l0 second_l1 second_r0 second_r1 _ _ p q).trans ?_
  refine Finset.sum_congr rfl fun r _ => ?_
  refine congrArg₂ (fun a b : EReal => a * b) ?_ (congrFun (shapeCast_self ut _) (ix2 r q))
  refine (PlainMatmul.matmul_zero_apply dot_S256x4096_S4096x512_S256x512_1_0_0_1_n_n none rfl rfl first_l0 first_l1 first_r0 first_r1 _ _ p r).trans ?_
  refine Finset.sum_congr rfl fun i _ => ?_
  exact congrArg (fun b : EReal => (x0 (ix2 p i) : EReal) * b) (congrFun (shapeCast_self vs _) (ix2 i r))

end Cert.KernelIdeal.Payload

end
-- ==== Proof.HostPrefix.lean ====
/-
  The two tables the region is launched with.

  Before the region the host scales the right factor column by column by the diagonal (two broadcasts of σ and a
  product) and transposes the left factor; each is then changed to a narrower float format, which is the identity on
  extended reals.  So the region finds, in the buffers its second and third windows stage,
      right[i, r] = v[i, r] · σ[r]      and      left[r, o] = u[o, r].
-/
import proofs.«131466_j3453153706201_2_alg».proof.Proof.Gen.KernelIdeal.Frame
import proofs.«131466_j3453153706201_2_alg».proof.Proof.LowRankSpec
import Idealize.ShloMosaic.Lib.StableHlo.Run
import Idealize.ShloMosaic.Lib.Pipeline.Value

noncomputable section

namespace Cert.KernelIdeal.HostPrefix

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ)

/-- The diagonal broadcast first to a [1, 512] row and then down the 4096 rows reads σ at the column. -/
theorem diagonal_apply (σ : S512.Idx → EReal) (j : S4096x512.Idx) :
    broadcastInDim S4096x512 ![0, 1] bcast_S1x512_S4096x512_0_1 (broadcastInDim S1x512 ![1] bcast_S512_S1x512_1 σ) j
      = σ (ix1 (j 1)) := by
  refine (broadcastInDim_apply _ bcast_S1x512_S4096x512_0_1 _ j (ix2 ⟨0, Nat.one_pos⟩ (j 1)) (fun a => match a with
    | ⟨0, _⟩ => by show 0 = if (1 : Nat) = 1 then 0 else (j 0).val; rw [if_pos rfl]
    | ⟨1, _⟩ => by show (j 1).val = if (512 : Nat) = 1 then 0 else (j 1).val; rw [if_neg (by decide)])).trans ?_
  exact broadcastInDim_apply _ bcast_S512_S1x512_1 σ _ (ix1 (j 1)) (fun a => match a with
    | ⟨0, _⟩ => by show (j 1).val = if (512 : Nat) = 1 then 0 else (j 1).val; rw [if_neg (by decide)])

/-- The host's product with the broadcast diagonal, narrowed, is the right factor scaled column by column. -/
theorem scaled_eq (v : S4096x512.Idx → EReal) (σ : S512.Idx → EReal) :
    @Eq (S4096x512.Idx → EReal)
      (truncf (F := Ideal) .bf16 (mulf (F := Ideal) (φ := .f32) v
        (broadcastInDim S4096x512 ![0, 1] bcast_S1x512_S4096x512_0_1 (broadcastInDim S1x512 ![1] bcast_S512_S1x512_1 σ)))
        bitsLt_bf16_f32)
      (Cert.LowRank.scaledRight σ v) := by
  funext j
  exact congrArg (fun b : EReal => v j * b) (diagonal_apply σ j)

/-- The host's transpose, narrowed, is the left factor read at the swapped coordinates. -/
theorem transposed_eq (u : S4096x512.Idx → EReal) :
    @Eq (S512x4096.Idx → EReal)
      (truncf (F := Ideal) (φ := .f32) .bf16 (transpose S512x4096 [1, 0] u transposes_S4096x512_S512x4096_1_0) bitsLt_bf16_f32)
      (Cert.LowRank.transposedLeft u) := by
  funext j
  exact transpose_apply [1, 0] u transposes_S4096x512_S512x4096_1_0 j (ix2 (j 1) (j 0))
    (fun b => match b with
      | ⟨0, _⟩ => rfl
      | ⟨1, _⟩ => rfl)

/-- The right table as launched: the right factor scaled column by column by the diagonal. -/
theorem right_table (c : Dev nD) :
    @Eq (S4096x512.Idx → EReal) (V m c main_v3)
      (Cert.LowRank.scaledRight (m ((c : Thread nD τ).loc main_arg2)) (m ((c : Thread nD τ).loc main_arg3))) := by
  have e : @Eq (S4096x512.Idx → EReal) (V m c main_v3)
      (truncf (F := Ideal) .bf16 (mulf (F := Ideal) (φ := .f32) (m ((c : Thread nD τ).loc main_arg3))
          (broadcastInDim S4096x512 ![0, 1] bcast_S1x512_S4096x512_0_1
            (broadcastInDim S1x512 ![1] bcast_S512_S1x512_1 (m ((c : Thread nD τ).loc main_arg2))))) bitsLt_bf16_f32) := by
    dsimp only [Gen.V, Gen.hostOps0]; after_results
  exact e.trans (scaled_eq _ _)

/-- The left table as launched: the left factor transposed. -/
theorem left_table (c : Dev nD) :
    @Eq (S512x4096.Idx → EReal) (V m c main_v5) (Cert.LowRank.transposedLeft (m ((c : Thread nD τ).loc main_arg1))) := by
  have e : @Eq (S512x4096.Idx → EReal) (V m c main_v5)
      (truncf (F := Ideal) (φ := .f32) .bf16
        (transpose S512x4096 [1, 0] (m ((c : Thread nD τ).loc main_arg1)) transposes_S4096x512_S512x4096_1_0)
          bitsLt_bf16_f32) := by
    dsimp only [Gen.V, Gen.hostOps0]; after_results
  exact e.trans (transposed_eq _)

end Cert.KernelIdeal.HostPrefix

end
-- ==== Proof.RegionValue.lean ====
/-
  From blocks to the whole result array.

  The grid has 64 points; point t stages rows 256·t … 256·t + 255 of the input (all 4096 columns), the whole right
  table and the whole left table, and writes back rows 256·t … 256·t + 255 of the result.  What it writes is the
  matching block of `throughRank` of the three arrays as the region finds them: entry (p, q) of the stored block is
  Σ_r (Σ_i rows[p, i] · right[i, r]) · left[r, q], and `rows[p, i]` is the input at row 256·t + p.  The 64 row blocks
  cover the result, so after the run the result array is `throughRank` of the launched arrays, which is `lowRank`
  of the four inputs once the two tables are read as the host wrote them.
-/
import proofs.«131466_j3453153706201_2_alg».proof.Proof.Gen.KernelIdeal.Value
import proofs.«131466_j3453153706201_2_alg».proof.Proof.KernelPayload
import proofs.«131466_j3453153706201_2_alg».proof.Proof.HostPrefix
import proofs.«131466_j3453153706201_2_alg».proof.Proof.LowRankSpec

noncomputable section

namespace Cert.KernelIdeal.RegionValue

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block indices of the four windows at a grid point: the row block is the point itself for the input rows and for
    the result, and both tables sit at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored entry, over plain arrays: if the staged rows are rows 256·b … of `X` and the staged tables are `Vs` and
    `Ut`, the stored block at `j` is `throughRank X Vs Ut` at row 256·b + j₀, column j₁. -/
theorem stored_entry (X : S16384x4096.Idx → EReal) (Vs : S4096x512.Idx → EReal) (Ut : S512x4096.Idx → EReal)
    (x0 : Vec Ideal S256x4096 .f32) (vs : Vec Ideal S4096x512 .bf16) (ut : Vec Ideal S512x4096 .bf16) (b : Nat)
    (h0 : ∀ (p : Fin 256) (i : Fin 4096) (k : S16384x4096.Idx), (k 0).val = b * 256 + p.val → (k 1).val = i.val →
      @Eq EReal (x0 (ix2 p i)) (X k))
    (h1 : ∀ y, @Eq EReal (vs y) (Vs y)) (h2 : ∀ y, @Eq EReal (ut y) (Ut y))
    (j : S256x4096.Idx) (k : S16384x4096.Idx) (hk0 : (k 0).val = b * 256 + (j 0).val) (hk1 : (k 1).val = (j 1).val) :
    @Eq EReal (k0_pay1 (F := Ideal) x0 vs ut j) (Cert.LowRank.throughRank X Vs Ut k) := by
  obtain ⟨p, q, rfl⟩ : ∃ (p : Fin 256) (q : Fin 4096), j = ix2 p q := ⟨j 0, j 1, eq_ix2 j⟩
  refine (Cert.KernelIdeal.Payload.stored_apply x0 vs ut p q).trans ?_
  unfold Cert.LowRank.throughRank
  have hq : k 1 = q := Fin.ext hk1
  refine Finset.sum_congr rfl fun r _ => ?_
  rw [h2, hq]
  congr 1
  refine Finset.sum_congr rfl fun i _ => ?_
  rw [h1, h0 p i (ix2 (k 0) i) hk0 rfl]

/-- What point `t` writes back is block `t` of `throughRank` of the arrays as the region finds them. -/
theorem flushed_eq (c : Dev nD) (t : Fin cfg0.N) :
    (dats m 0 c).flushed 3 t
      = ((cfg0.win 3).blk t).view.read (Elt Ideal) (Cert.LowRank.throughRank (V m c main_arg0) (V m c main_v3) (V m c main_v5)) := by
  rw [Cert.KernelIdeal.Value.flushed3]
  unfold out0_3
  rw [View.canon_unit_zero origin]
  simp only [View.ld_unit_zero (S := S256x4096) origin, View.ld_unit_zero (S := S4096x512) origin,
    View.ld_unit_zero (S := S512x4096) origin]
  obtain ⟨e00, e01, e10, e11, e20, e21, e30, e31⟩ := index_facts t
  funext j
  show @Eq EReal (k0_pay1 (F := Ideal) (iblk m c 0 t) (iblk m c 1 t) (iblk m c 2 t) j)
    (Cert.LowRank.throughRank (V m c main_arg0) (V m c main_v3) (V m c main_v5) (((cfg0.win 3).blk t).view.emb j))
  refine stored_entry (V m c main_arg0) (V m c main_v3) (V m c main_v5) (iblk m c 0 t) (iblk m c 1 t) (iblk m c 2 t) t.val
    ?_ ?_ ?_ j (((cfg0.win 3).blk t).view.emb j) ?_ ?_
  · intro p i k hk0 hk1
    show V m c main_arg0 (((cfg0.win 0).blk t).view.emb (ix2 p i)) = V m c main_arg0 k
    refine congrArg (V m c main_arg0) (funext fun a => Fin.ext ?_)
    match a with
    | ⟨0, _⟩ => show win0_0.index t (0 : Fin 2) * 256 + 1 * p.val = (k 0).val; omega
    | ⟨1, _⟩ => show win0_0.index t (1 : Fin 2) * 4096 + 1 * i.val = (k 1).val; omega
  · intro y
    show V m c main_v3 (((cfg0.win 1).blk t).view.emb y) = V m c main_v3 y
    refine congrArg (V m c main_v3) (funext fun a => Fin.ext ?_)
    match a with
    | ⟨0, _⟩ => show win0_1.index t (0 : Fin 2) * 4096 + 1 * (y 0).val = (y 0).val; omega
    | ⟨1, _⟩ => show win0_1.index t (1 : Fin 2) * 512 + 1 * (y 1).val = (y 1).val; omega
  · intro y
    show V m c main_v5 (((cfg0.win 2).blk t).view.emb y) = V m c main_v5 y
    refine congrArg (V m c main_v5) (funext fun a => Fin.ext ?_)
    match a with
    | ⟨0, _⟩ => show win0_2.index t (0 : Fin 2) * 512 + 1 * (y 0).val = (y 0).val; omega
    | ⟨1, _⟩ => show win0_2.index t (1 : Fin 2) * 4096 + 1 * (y 1).val = (y 1).val; omega
  · show win0_3.index t (0 : Fin 2) * 256 + 1 * (j 0).val = t.val * 256 + (j 0).val; omega
  · show win0_3.index t (1 : Fin 2) * 4096 + 1 * (j 1).val = (j 1).val; omega

/-- An index of the result is in point `t`'s block iff each coordinate is in the block's range on its axis. -/
theorem mem_blk (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v6).slice (win0_3.rect t)).set ↔ _
  rw [View.set_slice_whole, Rect.mem_set_unit]
  exact Iff.rfl

/-- Every row of the result lies in the block of the point ⌊row / 256⌋, and every point writes back. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨-, -, -, -, -, -, e30, e31⟩ := index_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- After the run the result array is `lowRank` of the four input arrays as launched. -/
theorem final (c : Dev nD) :
    (dats m 0 c).arrAt 3 cfg0.N
      = Cert.LowRank.lowRank (m ((c : Thread nD τ).loc main_arg0)) (m ((c : Thread nD τ).loc main_arg1))
          (m ((c : Thread nD τ).loc main_arg2)) (m ((c : Thread nD τ).loc main_arg3)) := by
  rw [(dats m 0 c).arrAt_eq_of_cover 3
    (Cert.LowRank.throughRank (V m c main_arg0) (V m c main_v3) (V m c main_v5)) (fun t _ => flushed_eq m c t) cover]
  unfold Cert.LowRank.lowRank
  rw [V_main_arg0, Cert.KernelIdeal.HostPrefix.right_table m c, Cert.KernelIdeal.HostPrefix.left_table m c]

/-- The kernel's run, read: the result array at `lowRank` of the inputs, the inputs unchanged. -/
theorem run : θ_run defs (onTc (τ := τ) (main (F := Ideal))) ⟨m, fun _ => 0, ρ⟩ fun r => ∀ c : Dev nD,
      r.2.mem ((c : Thread nD τ).loc main_v6)
        = Cert.LowRank.lowRank (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.RegionValue

end
-- ==== Proof.lean ====
/-
  A low-rank linear map evaluated in two orders.

  Inputs: x [16384, 4096], a left factor u [4096, 512], a diagonal σ [512] and a right factor v [4096, 512].
  The reference materialises the [4096, 4096] matrix w[o, i] = Σ_r (u[o, r] · σ[r]) · v[i, r] and returns
      out[t, o] = Σ_i x[t, i] · w[o, i].
  The kernel never forms w: the host scales the right factor column by column, right[i, r] = v[i, r] · σ[r], and
  transposes the left one, left[r, o] = u[o, r]; each of the 64 grid points then takes 256 rows of x, multiplies them
  by the right table and the [256, 512] product by the left table, and writes 256 rows of the result:
      out[t, o] = Σ_r (Σ_i x[t, i] · (v[i, r] · σ[r])) · u[o, r].
  Both are the double sum Σ_i Σ_r x[t, i] · u[o, r] · σ[r] · v[i, r]; passing from one to the other moves factors across
  sums, which is valid in the extended reals because the precondition makes every entry a real number.  Changes of
  float format are identities on extended reals and a product into a zero accumulator is the plain sum of products.
  The idealized kernel is the kernel's own text read over the extended reals (no operation was rewritten), so the
  idealization claim is trivial.

  Modules: LowRankLaw (the law of the two orders, over ℝ and carried to real-valued extended reals), LowRankSpec
  (the result as one function of the inputs), FiniteInputs (the precondition makes every entry real), ReferenceValue
  (the reference's result at an index), KernelPayload (the stored block at an index), HostPrefix (the two tables the
  region is launched with), RegionValue (from the 64 row blocks to the whole array, and the kernel's run).
-/
import proofs.«131466_j3453153706201_2_alg».proof.Defs
import proofs.«131466_j3453153706201_2_alg».proof.Proof.Gen.Kernel
import proofs.«131466_j3453153706201_2_alg».proof.Proof.Gen.Kernel.Skeleton
import proofs.«131466_j3453153706201_2_alg».proof.Proof.Gen.Kernel.Launch
import proofs.«131466_j3453153706201_2_alg».proof.Proof.Gen.Kernel.Points
import proofs.«131466_j3453153706201_2_alg».proof.Proof.Gen.Kernel.Frame
import proofs.«131466_j3453153706201_2_alg».proof.Proof.Gen.KernelIdeal
import proofs.«131466_j3453153706201_2_alg».proof.Proof.Gen.KernelIdeal.Skeleton
import proofs.«131466_j3453153706201_2_alg».proof.Proof.Gen.KernelIdeal.Launch
import proofs.«131466_j3453153706201_2_alg».proof.Proof.Gen.KernelIdeal.Points
import proofs.«131466_j3453153706201_2_alg».proof.Proof.Gen.KernelIdeal.Frame
import proofs.«131466_j3453153706201_2_alg».proof.Proof.Gen.KernelIdeal.Value
import proofs.«131466_j3453153706201_2_alg».proof.Proof.Gen.ReferenceIdeal
import proofs.«131466_j3453153706201_2_alg».proof.Proof.Gen.ReferenceIdeal.Run
import proofs.«131466_j3453153706201_2_alg».proof.Proof.Gen.ReferenceIdeal.Read
import proofs.«131466_j3453153706201_2_alg».proof.Proof.Gen.Pre_finite_inputs
import proofs.«131466_j3453153706201_2_alg».proof.Proof.FiniteInputs
import proofs.«131466_j3453153706201_2_alg».proof.Proof.ReferenceValue
import proofs.«131466_j3453153706201_2_alg».proof.Proof.RegionValue
import Idealize.ShloMosaic.Adequacy
import Idealize.ShloMosaic.Init

noncomputable section

namespace Cert.Proof

open Idealize.ShloMosaic Idealize.ShloMosaic.TcCoe Idealize.SL.Sem

/-- The word-level kernel terminates without a fault and leaves its inputs unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Both programs end with the result array at `lowRank` of the inputs: the kernel by its 64 row blocks, the
    reference by the law of the two orders, which needs every entry real — the precondition. -/
theorem algebraic : Cert.algebraic_KernelIdeal_ReferenceIdeal := by
  intro m ρ m' ρ' hpre hagree
  refine ⟨fun c => Cert.LowRank.lowRank (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.FiniteInputs.reals_of_pre _ _ _ _ (hpre c)
  rw [Cert.ReferenceIdeal.Read.val_main_v6_eq, (hagree c).1, (hagree c).2.1, (hagree c).2.2.1, (hagree c).2.2.2]
  exact Cert.ReferenceIdeal.RefValue.result_eq _ _ _ _ h0 h1 h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
